-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S100000x3 : Shape := ⟨2, ![100000, 3]⟩
abbrev S259x128 : Shape := ⟨2, ![259, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S100000x3 : S_.BroadcastsInDim S100000x3 (![] : Fin 0 → Fin S100000x3.rank)
  reducesTo_S100000x3_S_d0_1 : S100000x3.ReducesTo [0, 1] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S259x128 1) : IVec S_ 1 :=
  let main_c_5 : IVec S_ 1 := constantI S_ 1 1#1
  let main_v17 : IVec S_ 1 := (fun x v => Host.reduce IntOp.andi x v reducesTo_S259x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S1600000x128 .f32) (main_arg3 : FVec F S100000x3 .f32) (main_arg4 : FVec F S259x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S100000x3 .f32 := Host.absf main_arg3
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S259x128 .f32 := Host.absf main_arg4
  let main_cst_4 : FVec F S_ .f32 := constant S_ .f32 0x7F800000#32
  let main_v15 : FVec F S259x128 .f32 := broadcastInDim S259x128 ![] bcast_S_S259x128 main_cst_4
  let main_v16 : IVec S259x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S100000x3 : Shape := ⟨2, ![100000, 3]⟩
abbrev S259x128 : Shape := ⟨2, ![259, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S3x128 : Shape := ⟨2, ![3, 128]⟩
abbrev S5000x128 : Shape := ⟨2, ![5000, 128]⟩
abbrev S5000x3 : Shape := ⟨2, ![5000, 3]⟩
abbrev S1x128 : Shape := ⟨2, ![1, 128]⟩

abbrev nBuf : Space → Nat
  | .hbm => 20
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S100000x3, .f32⟩
  | .hbm, ⟨4, _⟩ => ⟨S259x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S128x128, .f32⟩
  | .hbm, ⟨17, _⟩ => ⟨S128x128, .f32⟩
  | .hbm, ⟨18, _⟩ => ⟨S3x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x3, .f32⟩
  | .local _ .vmem, ⟨5, _⟩ => ⟨S5000x3, .f32⟩
  | .local _ .vmem, ⟨6, _⟩ => ⟨S128x128, .f32⟩
  | .local _ .vmem, ⟨7, _⟩ => ⟨S128x128, .f32⟩
  | .local _ .vmem, ⟨8, _⟩ => ⟨S3x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  slices_S259x128_S128x128_0_0 : S259x128.Slices ![0, 0] S128x128
  slices_S259x128_S128x128_128_0 : S259x128.Slices ![128, 0] S128x128
  slices_S259x128_S3x128_256_0 : S259x128.Slices ![256, 0] S3x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x3_S5000x3_0_0 : ∀ a, (![0, 0] : Fin 2 → Nat) a + S5000x3.size a ≤ S5000x3.size a
  h_S5000x3 : 0 < S5000x3.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x3_S3x128_S5000x128_1_0_0_1_n_n_wf : DotDims.WF S5000x3 S3x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S100000x3.size a
  hwx0_2 : ∀ i : grid0.Coords, EltTy.bits .f32 = 32 ∨ (Rect.block (s := S100000x3) S5000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S100000x3 : Shape := ⟨2, ![100000, 3]⟩
abbrev S259x128 : Shape := ⟨2, ![259, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x259 : Shape := ⟨2, ![100000, 259]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S100000x3, .f32⟩
  | .hbm, ⟨4, _⟩ => ⟨S259x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000x128, .f32⟩
  | .hbm, ⟨14, _⟩ => ⟨S1600000x1, .i32⟩
  | .hbm, ⟨15, _⟩ => ⟨S100000x128, .f32⟩
  | .hbm, ⟨16, _⟩ => ⟨S100000x259, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  concatenates_S100000x128_S100000x128_S100000x3_S100000x259_d1 : Shape.Concatenates [S100000x128, S100000x128, S100000x3] S100000x259 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x128_S1600000x1_S1600000x128_1_0_0_1_wf : ScatterDims.WF S100000x128 S1600000x1 S1600000x128 [1] [0] [0] 1
  dot_S100000x259_S259x128_S100000x128_1_0_0_1_n_n_wf : DotDims.WF S100000x259 S259x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x259_S259x128_S100000x128_1_0_0_1_n_n : DotDims S100000x259 S259x128 S100000x128 where
  lhsContracting := [1]
  rhsContracting := [0]
  lhsNonContracting := [0]
  rhsNonContracting := [1]
  lhsBatch := []
  rhsBatch := []
  wf := dot_S100000x259_S259x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Mlp.lean ====
/-
  The function both programs compute, on one row of the node features.

  A node's row is three pieces laid side by side: its own features `x` (128 numbers), the sum `a` of the edge
  attributes that arrive at it (128 numbers) and its extra features `f` (3 numbers). The network is three affine
  layers with a SiLU after the first two:

      h₁ = [x | a | f] · W₀ + b₀,   h₂ = silu(h₁) · W₁ + b₁,   out = silu(h₂) · W₂ + b₂,

  where `silu t = t · σ(t)` and `σ(t) = 1 / (1 + e^(-t))`, all on the extended reals.

  The product of the 259 joined entries with `W₀` can be taken in one sum over 259 terms, or as three sums over the
  three pieces against the matching rows of `W₀` (rows 0–127, 128–255, 256–258). Addition on the extended reals is
  commutative and associative, so regrouping a finite sum is an identity with no finiteness assumption: `sum_three_pieces`.
-/
import Idealize.ShloMosaic.PureOps.Ideal
import Idealize.ShloMosaic.Lib.ValueIdx
import Mathlib.Algebra.BigOperators.Fin

namespace Cert.Mlp

open Idealize.ShloMosaic Idealize.ShloMosaic.ValueIdx

/-- SiLU on the extended reals: `t · σ(t)`, with `σ(t) = 1 / (1 + e^(-t))`. -/
noncomputable def silu (t : EReal) : EReal := t * Ideal.logistic t

/-- The same with the logistic function written out as the quotient `1 / (1 + e^(-t))`. -/
theorem silu_quotient (t : EReal) : t * Ideal.div 1 (1 + Ideal.exp (-t)) = silu t := rfl

/-- One affine layer at one output column: the row times column `j` of the weights, plus the bias. -/
noncomputable def dense {K N : Nat} (h : Fin K → EReal) (W : Fin K → Fin N → EReal) (b : Fin N → EReal) (j : Fin N) : EReal :=
  (∑ k : Fin K, h k * W k j) + b j

/-- The first layer taken piece by piece: each piece of the row against its own rows of the weights, the three
    partial products added left to right, then the bias. -/
noncomputable def dense3 (x a : Fin 128 → EReal) (f : Fin 3 → EReal) (Wx Wa : Fin 128 → Fin 128 → EReal)
    (Wf : Fin 3 → Fin 128 → EReal) (b : Fin 128 → EReal) (j : Fin 128) : EReal :=
  ((∑ k : Fin 128, x k * Wx k j + ∑ k : Fin 128, a k * Wa k j) + ∑ k : Fin 3, f k * Wf k j) + b j

/-- The whole network on one row. -/
noncomputable def mlpRow (x a : Fin 128 → EReal) (f : Fin 3 → EReal) (Wx Wa : Fin 128 → Fin 128 → EReal)
    (Wf : Fin 3 → Fin 128 → EReal) (b0 : Fin 128 → EReal) (W1 : Fin 128 → Fin 128 → EReal) (b1 : Fin 128 → EReal)
    (W2 : Fin 128 → Fin 128 → EReal) (b2 : Fin 128 → EReal) : Fin 128 → EReal :=
  dense (fun k => silu (dense (fun k' => silu (dense3 x a f Wx Wa Wf b0 k')) W1 b1 k)) W2 b2

/-- The whole result: the network on every node's row. Entry (r, q) reads row `r` of the node features `x`, of the
    summed edge attributes `a` and of the extra features `f`; the first weight matrix `W0` is read by its rows 0–127
    (against `x`), 128–255 (against `a`) and 256–258 (against `f`). -/
noncomputable def mlpArray (x a : (⟨2, ![100000, 128]⟩ : Shape).Idx → EReal) (f : (⟨2, ![100000, 3]⟩ : Shape).Idx → EReal)
    (W0 : (⟨2, ![259, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![100000, 128]⟩ : Shape).Idx → EReal := fun i =>
  mlpRow (fun k => x (ix2 (n0 := 100000) (i 0) k)) (fun k => a (ix2 (n0 := 100000) (i 0) k))
    (fun k => f (ix2 (n0 := 100000) (i 0) k))
    (fun k j => W0 (ix2 (⟨k.val, by omega⟩ : Fin 259) j)) (fun k j => W0 (ix2 (⟨128 + k.val, by omega⟩ : Fin 259) j))
    (fun k j => W0 (ix2 (⟨256 + k.val, by omega⟩ : Fin 259) j)) (fun j => b0 (ix1 j))
    (fun k j => W1 (ix2 k j)) (fun j => b1 (ix1 j)) (fun k j => W2 (ix2 k j)) (fun j => b2 (ix1 j)) (i 1)

/-- At row `r` and column `q` it is the network on row `r`, read at `q`. -/
theorem mlpArray_apply (x a : (⟨2, ![100000, 128]⟩ : Shape).Idx → EReal) (f : (⟨2, ![100000, 3]⟩ : Shape).Idx → EReal)
    (W0 : (⟨2, ![259, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (r : Fin 100000) (q : Fin 128) :
    mlpArray x a f W0 b0 W1 b1 W2 b2 (ix2 r q)
      = mlpRow (fun k => x (ix2 r k)) (fun k => a (ix2 r k)) (fun k => f (ix2 r k))
          (fun k j => W0 (ix2 (⟨k.val, by omega⟩ : Fin 259) j)) (fun k j => W0 (ix2 (⟨128 + k.val, by omega⟩ : Fin 259) j))
          (fun k j => W0 (ix2 (⟨256 + k.val, by omega⟩ : Fin 259) j)) (fun j => b0 (ix1 j))
          (fun k j => W1 (ix2 k j)) (fun j => b1 (ix1 j)) (fun k j => W2 (ix2 k j)) (fun j => b2 (ix1 j)) q := rfl

/-- A sum over 259 terms is the sum of its first 128, its next 128 and its last 3. -/
theorem sum_three_pieces (g : Fin 259 → EReal) :
    ∑ k : Fin 259, g k
      = (∑ k : Fin 128, g ⟨k.val, by omega⟩ + ∑ k : Fin 128, g ⟨128 + k.val, by omega⟩)
        + ∑ k : Fin 3, g ⟨256 + k.val, by omega⟩ := by
  have h1 : ∑ k : Fin 259, g k = ∑ k : Fin 256, g ⟨k.val, by omega⟩ + ∑ k : Fin 3, g ⟨256 + k.val, by omega⟩ :=
    Fin.sum_univ_add (a := 256) (b := 3) g
  have h2 : ∑ k : Fin 256, g ⟨k.val, by omega⟩
      = ∑ k : Fin 128, g ⟨k.val, by omega⟩ + ∑ k : Fin 128, g ⟨128 + k.val, by omega⟩ :=
    Fin.sum_univ_add (a := 128) (b := 128) (fun k : Fin 256 => g ⟨k.val, by omega⟩)
  rw [h1, h2]

end Cert.Mlp
-- ==== Proof.KernelRows.lean ====
/-
  What the kernel's body computes, entry by entry.

  The body works on a block of 5000 node rows. Read at row `p` and column `q` of the block, the value it stores is the
  network `Cert.Mlp.mlpRow` applied to row `p` of the three input blocks (own features, summed edge attributes, extra
  features), with the first layer's weights given as three separate matrices. Nothing in it couples two rows: every
  matrix product contracts over the feature axis only, the biases are one row repeated down the block, and SiLU is
  taken entry by entry. The changes of float format inside the body are identities on the extended reals.
-/
import proofs.«112431_j17910013624369_2_alg».proof.Proof.Gen.KernelIdeal.Skeleton
import proofs.«112431_j17910013624369_2_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Mlp

theorem matmul128_apply_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem matmul128_apply_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product of a [5000, 128] block with a [128, 128] matrix, accumulated from zero: entry (p, q) is the sum over the 128 shared coordinates of row `p` of the block against column `q` of the matrix. -/
theorem matmul128_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact matmul128_apply_l0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact matmul128_apply_r1 _ _)
  rw [el, er]

theorem matmul3_apply_l0 (i : S5000x128.Idx) (c : dot_S5000x3_S3x128_S5000x128_1_0_0_1_n_n.contr.Idx) : (dot_S5000x3_S3x128_S5000x128_1_0_0_1_n_n.lhsIdx i c 0).val = (i 0).val := by
  unfold DotDims.lhsIdx
  rw [dif_neg (show ¬(0 : Fin S5000x3.rank) ∈ dot_S5000x3_S3x128_S5000x128_1_0_0_1_n_n.lhsBatch by decide),
    dif_pos (show (0 : Fin S5000x3.rank) ∈ dot_S5000x3_S3x128_S5000x128_1_0_0_1_n_n.lhsNonContracting by decide)]
  rfl
theorem matmul3_apply_r1 (i : S5000x128.Idx) (c : dot_S5000x3_S3x128_S5000x128_1_0_0_1_n_n.contr.Idx) : (dot_S5000x3_S3x128_S5000x128_1_0_0_1_n_n.rhsIdx i c 1).val = (i 1).val := by
  unfold DotDims.rhsIdx
  rw [dif_neg (show ¬(1 : Fin S3x128.rank) ∈ dot_S5000x3_S3x128_S5000x128_1_0_0_1_n_n.rhsBatch by decide),
    dif_pos (show (1 : Fin S3x128.rank) ∈ dot_S5000x3_S3x128_S5000x128_1_0_0_1_n_n.rhsNonContracting by decide)]
  rfl

/-- The same for the [5000, 3] block of extra features against its [3, 128] rows of the weights: a sum of three products. -/
theorem matmul3_apply {φ₁ φ₂ : FTy} (l : FVec Ideal S5000x3 φ₁) (r : FVec Ideal S3x128 φ₂) (p : Fin 5000) (q : Fin 128) :
    matmul dot_S5000x3_S3x128_S5000x128_1_0_0_1_n_n none l r (constant (F := Ideal) S5000x128 .f32 0x00000000#32) (ix2 p q)
      = ∑ k : Fin 3, l (ix2 p k) * r (ix2 k q) := by
  simp only [matmul]
  rw [Ideal.matmul_constant_zero_apply, ← Equiv.sum_comp (contrEquiv1 dot_S5000x3_S3x128_S5000x128_1_0_0_1_n_n 3 rfl rfl).symm]
  refine Finset.sum_congr rfl fun k _ => ?_
  have hk := contrEquiv1_symm_val dot_S5000x3_S3x128_S5000x128_1_0_0_1_n_n 3 rfl rfl k
  have el : dot_S5000x3_S3x128_S5000x128_1_0_0_1_n_n.lhsIdx (ix2 p q) ((contrEquiv1 dot_S5000x3_S3x128_S5000x128_1_0_0_1_n_n 3 rfl rfl).symm k) = ix2 p k :=
    funext fun a => Fin.ext (by
      match a with
      | ⟨0, _⟩ => exact matmul3_apply_l0 _ _
      | ⟨1, _⟩ => exact (dot_S5000x3_S3x128_S5000x128_1_0_0_1_n_n.lhsIdx_val_of_single rfl _ _).trans hk)
  have er : dot_S5000x3_S3x128_S5000x128_1_0_0_1_n_n.rhsIdx (ix2 p q) ((contrEquiv1 dot_S5000x3_S3x128_S5000x128_1_0_0_1_n_n 3 rfl rfl).symm k) = ix2 k q :=
    funext fun a => Fin.ext (by
      match a with
      | ⟨0, _⟩ => exact (dot_S5000x3_S3x128_S5000x128_1_0_0_1_n_n.rhsIdx_val_of_single rfl _ _).trans hk
      | ⟨1, _⟩ => exact matmul3_apply_r1 _ _)
  rw [el, er]
/-- A bias vector laid out as one row and repeated down the 5000 rows of a block reads, at (p, q), the bias at `q`. -/
theorem bias_apply {α : Type} (b : S128.Idx → α) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The logistic function of a block is taken entry by entry. -/
theorem logistic_apply {s : Shape} {φ : FTy} (v : FVec Ideal s φ) (i : s.Idx) : logistic v i = Ideal.logistic (v i) := rfl

/-- The stored block at row `p`, column `q`: the network on row `p` of the input blocks. -/
theorem body_apply (x0 x1 : Vec Ideal S5000x128 .f32) (x2 : Vec Ideal S5000x3 .f32) (x3 x4 : Vec Ideal S128x128 .f32)
    (x5 : Vec Ideal S3x128 .f32) (x6 : Vec Ideal S128 .f32) (x7 : Vec Ideal S128x128 .f32) (x8 : Vec Ideal S128 .f32)
    (x9 : Vec Ideal S128x128 .f32) (x10 : Vec Ideal S128 .f32) (p : Fin 5000) (q : Fin 128) :
    k0_pay1 (k0_pay2 x0 x1 x2 x3 x4 x5 x6 x7 x8) x9 x10 (ix2 p q)
      = mlpRow (fun k => x0 (ix2 p k)) (fun k => x1 (ix2 p k)) (fun k => x2 (ix2 p k))
          (fun k j => x3 (ix2 k j)) (fun k j => x4 (ix2 k j)) (fun k j => x5 (ix2 k j)) (fun j => x6 (ix1 j))
          (fun k j => x7 (ix2 k j)) (fun j => x8 (ix1 j)) (fun k j => x9 (ix2 k j)) (fun j => x10 (ix1 j)) q := by
  unfold k0_pay1 k0_pay2 mlpRow dense dense3 silu
  simp only [addf_apply, mulf_apply, logistic_apply, matmul128_apply, matmul3_apply, bias_apply, truncf_apply, shapeCast_self]

end Cert.KernelIdeal.Rows

end
-- ==== Proof.KernelArray.lean ====
/-
  From the kernel's blocks to the whole result array.

  The call runs its body at 20 grid points; point `t` works on node rows `5000 t … 5000 t + 4999` of the node
  features, of the summed edge attributes and of the extra features, on the whole of every weight and bias array,
  and writes rows `5000 t … 5000 t + 4999` of the result. The body's value at a row depends on that row alone
  (`Cert.KernelIdeal.Rows.body_apply`), so what point `t` writes is block `t` of one array-wide function: the network
  on each node's row. The 20 blocks tile the 100000 rows (row `r` lies in block `r / 5000`), so that function is the
  array after the run.

  Before the call, @main computes the summed edge attributes (a scatter-add of the edge attributes by destination
  node) and cuts the first weight matrix into its rows 0–127, 128–255, 256–258; the call's operands are those arrays.
-/
import proofs.«112431_j17910013624369_2_alg».proof.Proof.Gen.KernelIdeal.Value
import proofs.«112431_j17910013624369_2_alg».proof.Proof.KernelRows
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.KernelIdeal.Value Idealize.ShloMosaic.ValueIdx Cert.Mlp

variable (m : (ℓ : Loc nD τ sig) → Buf (Elt Ideal) ℓ) (ρ : Dev nD → PrngReg)

/-! ## The arrays the call finds -/

/-- The summed edge attributes as @main computes them before the call: the edge attributes scatter-added, by the
    destination row of the edge index, onto a zero array. -/
def agg (x1 : (⟨S2x1600000, .i32⟩ : BufTy).Contents (Elt Ideal)) (x2 : (⟨S1600000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast _ (extractStridedSlice S1x1600000 ![1, 0] x1 slices_S2x1600000_S1x1600000_1_0) shapeCasts_S1x1600000_S1600000))
    x2

theorem V_agg (c : Dev nD) :
    (V m c main_v4 : S100000x128.Idx → EReal) = agg (m ((c : Thread nD τ).loc main_arg1)) (m ((c : Thread nD τ).loc main_arg2)) := by
  dsimp only [Gen.V, Gen.hostOps0]; after_results; rfl

theorem V_w0_own (c : Dev nD) :
    (V m c main_v5 : S128x128.Idx → EReal) = extractStridedSlice S128x128 ![0, 0] (m ((c : Thread nD τ).loc main_arg4)) slices_S259x128_S128x128_0_0 := by
  dsimp only [Gen.V, Gen.hostOps0]; after_results

theorem V_w0_sum (c : Dev nD) :
    (V m c main_v6 : S128x128.Idx → EReal) = extractStridedSlice S128x128 ![128, 0] (m ((c : Thread nD τ).loc main_arg4)) slices_S259x128_S128x128_128_0 := by
  dsimp only [Gen.V, Gen.hostOps0]; after_results

theorem V_w0_extra (c : Dev nD) :
    (V m c main_v7 : S3x128.Idx → EReal) = extractStridedSlice S3x128 ![256, 0] (m ((c : Thread nD τ).loc main_arg4)) slices_S259x128_S3x128_256_0 := by
  dsimp only [Gen.V, Gen.hostOps0]; after_results

/-! ## Which block each window stages at a point -/

/-- The three row-blocked inputs and the output move down one block per point, along the rows only. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The weights and biases are staged whole at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Row `p` of block `t` is row `5000 t + p` of the array. -/
def row (t : Fin cfg0.N) (p : Fin 5000) : Fin 100000 :=
  ⟨t.val * 5000 + p.val, by have h : t.val < grid0.N := t.isLt; have hN : grid0.N = 20 := N_0; omega⟩

/-- Window 0's block at point `t`, read off any array of its shape, is rows `5000 t … 5000 t + 4999` of that array. -/
theorem read0 (t : Fin cfg0.N) (A : S100000x128.Idx → EReal) (p : Fin 5000) (k : Fin 128) :
    (((cfg0.win 0).blk t).view.read (Elt Ideal) A : S5000x128.Idx → EReal) (ix2 p k) = A (ix2 (row t p) k) := by
  obtain ⟨e0_0, e0_1, e1_0, e1_1, e2_0, e2_1, -⟩ := idx_rows t
  rw [View.read_apply]
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1's block at point `t`, read off any array of its shape, is rows `5000 t … 5000 t + 4999` of that array. -/
theorem read1 (t : Fin cfg0.N) (A : S100000x128.Idx → EReal) (p : Fin 5000) (k : Fin 128) :
    (((cfg0.win 1).blk t).view.read (Elt Ideal) A : S5000x128.Idx → EReal) (ix2 p k) = A (ix2 (row t p) k) := by
  obtain ⟨e0_0, e0_1, e1_0, e1_1, e2_0, e2_1, -⟩ := idx_rows t
  rw [View.read_apply]
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Window 2's block at point `t`, read off any array of its shape, is rows `5000 t … 5000 t + 4999` of that array. -/
theorem read2 (t : Fin cfg0.N) (A : S100000x3.Idx → EReal) (p : Fin 5000) (k : Fin 3) :
    (((cfg0.win 2).blk t).view.read (Elt Ideal) A : S5000x3.Idx → EReal) (ix2 p k) = A (ix2 (row t p) k) := by
  obtain ⟨e0_0, e0_1, e1_0, e1_1, e2_0, e2_1, -⟩ := idx_rows t
  rw [View.read_apply]
  refine congrArg A (funext fun a => Fin.ext ?_)
  match a with
  | ⟨0, _⟩ => show win0_2.index t (0 : Fin 2) * 5000 + 1 * p.val = t.val * 5000 + p.val; omega
  | ⟨1, _⟩ => show win0_2.index t (1 : Fin 2) * 3 + 1 * k.val = k.val; omega

/-- Window 3 stages its whole array at every point. -/
theorem read3 (t : Fin cfg0.N) (A : S128x128.Idx → EReal) (k : Fin 128) (j : Fin 128) :
    (((cfg0.win 3).blk t).view.read (Elt Ideal) A : S128x128.Idx → EReal) (ix2 k j) = A (ix2 k j) := by
  have e := idx_whole t
  rw [View.read_apply]
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

/-- Window 4 stages its whole array at every point. -/
theorem read4 (t : Fin cfg0.N) (A : S128x128.Idx → EReal) (k : Fin 128) (j : Fin 128) :
    (((cfg0.win 4).blk t).view.read (Elt Ideal) A : S128x128.Idx → EReal) (ix2 k j) = A (ix2 k j) := by
  have e := idx_whole t
  rw [View.read_apply]
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- Window 5 stages its whole array at every point. -/
theorem read5 (t : Fin cfg0.N) (A : S3x128.Idx → EReal) (k : Fin 3) (j : Fin 128) :
    (((cfg0.win 5).blk t).view.read (Elt Ideal) A : S3x128.Idx → EReal) (ix2 k j) = A (ix2 k j) := by
  have e := idx_whole t
  rw [View.read_apply]
  refine congrArg A (funext fun a => Fin.ext ?_)
  match a with
  | ⟨0, _⟩ => show win0_5.index t (0 : Fin 2) * 3 + 1 * k.val = k.val; omega
  | ⟨1, _⟩ => show win0_5.index t (1 : Fin 2) * 128 + 1 * j.val = j.val; omega

/-- Window 6 stages its whole array at every point. -/
theorem read6 (t : Fin cfg0.N) (A : S128.Idx → EReal) (j : Fin 128) :
    (((cfg0.win 6).blk t).view.read (Elt Ideal) A : S128.Idx → EReal) (ix1 j) = A (ix1 j) := by
  have e := idx_whole t
  rw [View.read_apply]
  refine congrArg A (funext fun a => Fin.ext ?_)
  match a with
  | ⟨0, _⟩ => show win0_6.index t (0 : Fin 1) * 128 + 1 * j.val = j.val; omega

/-- Window 7 stages its whole array at every point. -/
theorem read7 (t : Fin cfg0.N) (A : S128x128.Idx → EReal) (k : Fin 128) (j : Fin 128) :
    (((cfg0.win 7).blk t).view.read (Elt Ideal) A : S128x128.Idx → EReal) (ix2 k j) = A (ix2 k j) := by
  have e := idx_whole t
  rw [View.read_apply]
  refine congrArg A (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

/-- Window 8 stages its whole array at every point. -/
theorem read8 (t : Fin cfg0.N) (A : S128.Idx → EReal) (j : Fin 128) :
    (((cfg0.win 8).blk t).view.read (Elt Ideal) A : S128.Idx → EReal) (ix1 j) = A (ix1 j) := by
  have e := idx_whole t
  rw [View.read_apply]
  refine congrArg A (funext fun a => Fin.ext ?_)
  match a with
  | ⟨0, _⟩ => show win0_8.index t (0 : Fin 1) * 128 + 1 * j.val = j.val; omega

/-- Window 9 stages its whole array at every point. -/
theorem read9 (t : Fin cfg0.N) (A : S128x128.Idx → EReal) (k : Fin 128) (j : Fin 128) :
    (((cfg0.win 9).blk t).view.read (Elt Ideal) A : S128x128.Idx → EReal) (ix2 k j) = A (ix2 k j) := by
  have e := idx_whole t
  rw [View.read_apply]
  refine congrArg A (funext fun a => Fin.ext ?_)
  match a with
  | ⟨0, _⟩ => show win0_9.index t (0 : Fin 2) * 128 + 1 * k.val = k.val; omega
  | ⟨1, _⟩ => show win0_9.index t (1 : Fin 2) * 128 + 1 * j.val = j.val; omega

/-- Window 10 stages its whole array at every point. -/
theorem read10 (t : Fin cfg0.N) (A : S128.Idx → EReal) (j : Fin 128) :
    (((cfg0.win 10).blk t).view.read (Elt Ideal) A : S128.Idx → EReal) (ix1 j) = A (ix1 j) := by
  have e := idx_whole t
  rw [View.read_apply]
  refine congrArg A (funext fun a => Fin.ext ?_)
  match a with
  | ⟨0, _⟩ => show win0_10.index t (0 : Fin 1) * 128 + 1 * j.val = j.val; omega

/-! ## The call's operands, block by block -/

theorem blk0 (c : Dev nD) (t : Fin cfg0.N) (p : Fin 5000) (k : Fin 128) :
    (iblk m c 0 t : S5000x128.Idx → EReal) (ix2 p k) = (V m c main_arg0 : S100000x128.Idx → EReal) (ix2 (row t p) k) :=
  read0 t (V m c main_arg0) p k
theorem blk1 (c : Dev nD) (t : Fin cfg0.N) (p : Fin 5000) (k : Fin 128) :
    (iblk m c 1 t : S5000x128.Idx → EReal) (ix2 p k) = (V m c main_v4 : S100000x128.Idx → EReal) (ix2 (row t p) k) :=
  read1 t (V m c main_v4) p k
theorem blk2 (c : Dev nD) (t : Fin cfg0.N) (p : Fin 5000) (k : Fin 3) :
    (iblk m c 2 t : S5000x3.Idx → EReal) (ix2 p k) = (V m c main_arg3 : S100000x3.Idx → EReal) (ix2 (row t p) k) :=
  read2 t (V m c main_arg3) p k
theorem blk3 (c : Dev nD) (t : Fin cfg0.N) (k : Fin 128) (j : Fin 128) :
    (iblk m c 3 t : S128x128.Idx → EReal) (ix2 k j) = (V m c main_v5 : S128x128.Idx → EReal) (ix2 k j) :=
  read3 t (V m c main_v5) k j
theorem blk4 (c : Dev nD) (t : Fin cfg0.N) (k : Fin 128) (j : Fin 128) :
    (iblk m c 4 t : S128x128.Idx → EReal) (ix2 k j) = (V m c main_v6 : S128x128.Idx → EReal) (ix2 k j) :=
  read4 t (V m c main_v6) k j
theorem blk5 (c : Dev nD) (t : Fin cfg0.N) (k : Fin 3) (j : Fin 128) :
    (iblk m c 5 t : S3x128.Idx → EReal) (ix2 k j) = (V m c main_v7 : S3x128.Idx → EReal) (ix2 k j) :=
  read5 t (V m c main_v7) k j
theorem blk6 (c : Dev nD) (t : Fin cfg0.N) (j : Fin 128) :
    (iblk m c 6 t : S128.Idx → EReal) (ix1 j) = (V m c main_arg5 : S128.Idx → EReal) (ix1 j) :=
  read6 t (V m c main_arg5) j
theorem blk7 (c : Dev nD) (t : Fin cfg0.N) (k : Fin 128) (j : Fin 128) :
    (iblk m c 7 t : S128x128.Idx → EReal) (ix2 k j) = (V m c main_arg6 : S128x128.Idx → EReal) (ix2 k j) :=
  read7 t (V m c main_arg6) k j
theorem blk8 (c : Dev nD) (t : Fin cfg0.N) (j : Fin 128) :
    (iblk m c 8 t : S128.Idx → EReal) (ix1 j) = (V m c main_arg7 : S128.Idx → EReal) (ix1 j) :=
  read8 t (V m c main_arg7) j
theorem blk9 (c : Dev nD) (t : Fin cfg0.N) (k : Fin 128) (j : Fin 128) :
    (iblk m c 9 t : S128x128.Idx → EReal) (ix2 k j) = (V m c main_arg8 : S128x128.Idx → EReal) (ix2 k j) :=
  read9 t (V m c main_arg8) k j
theorem blk10 (c : Dev nD) (t : Fin cfg0.N) (j : Fin 128) :
    (iblk m c 10 t : S128.Idx → EReal) (ix1 j) = (V m c main_arg9 : S128.Idx → EReal) (ix1 j) :=
  read10 t (V m c main_arg9) j

/-! ## What each point writes, and the array after the run -/

theorem hz2 : (![0, 0] : Fin 2 → Nat) = fun _ => 0 := funext fun a => by fin_cases a <;> rfl
theorem hz1 : (![0] : Fin 1 → Nat) = fun _ => 0 := funext fun a => by fin_cases a; rfl

/-- The array the call leaves, index by index, from the arrays it finds: the network on each node's row. -/
def G (c : Dev nD) : S100000x128.Idx → EReal := fun i =>
  mlpRow (fun k => (V m c main_arg0 : S100000x128.Idx → EReal) (ix2 (n0 := 100000) (i 0) k))
    (fun k => (V m c main_v4 : S100000x128.Idx → EReal) (ix2 (n0 := 100000) (i 0) k))
    (fun k => (V m c main_arg3 : S100000x3.Idx → EReal) (ix2 (n0 := 100000) (i 0) k))
    (fun k j => (V m c main_v5 : S128x128.Idx → EReal) (ix2 k j))
    (fun k j => (V m c main_v6 : S128x128.Idx → EReal) (ix2 k j))
    (fun k j => (V m c main_v7 : S3x128.Idx → EReal) (ix2 k j))
    (fun j => (V m c main_arg5 : S128.Idx → EReal) (ix1 j))
    (fun k j => (V m c main_arg6 : S128x128.Idx → EReal) (ix2 k j))
    (fun j => (V m c main_arg7 : S128.Idx → EReal) (ix1 j))
    (fun k j => (V m c main_arg8 : S128x128.Idx → EReal) (ix2 k j))
    (fun j => (V m c main_arg9 : S128.Idx → EReal) (ix1 j)) (i 1)

theorem G_apply (c : Dev nD) (r : Fin 100000) (q : Fin 128) :
    G m c (ix2 r q) = mlpRow (fun k => (V m c main_arg0 : S100000x128.Idx → EReal) (ix2 r k))
    (fun k => (V m c main_v4 : S100000x128.Idx → EReal) (ix2 r k))
    (fun k => (V m c main_arg3 : S100000x3.Idx → EReal) (ix2 r k))
    (fun k j => (V m c main_v5 : S128x128.Idx → EReal) (ix2 k j))
    (fun k j => (V m c main_v6 : S128x128.Idx → EReal) (ix2 k j))
    (fun k j => (V m c main_v7 : S3x128.Idx → EReal) (ix2 k j))
    (fun j => (V m c main_arg5 : S128.Idx → EReal) (ix1 j))
    (fun k j => (V m c main_arg6 : S128x128.Idx → EReal) (ix2 k j))
    (fun j => (V m c main_arg7 : S128.Idx → EReal) (ix1 j))
    (fun k j => (V m c main_arg8 : S128x128.Idx → EReal) (ix2 k j))
    (fun j => (V m c main_arg9 : S128.Idx → EReal) (ix1 j)) q := rfl

/-- What point `t` writes back is block `t` of `G`. -/
theorem flushed_eq (c : Dev nD) (t : Fin cfg0.N) :
    (dats m 0 c).flushed 11 t = ((cfg0.win 11).blk t).view.read (Elt Ideal) (G m c) := by
  rw [flushed11]
  unfold out0_11
  rw [View.canon_unit_zero hz2]
  simp only [View.ld_unit_zero (S := S5000x128) hz2, View.ld_unit_zero (S := S5000x3) hz2, View.ld_unit_zero (S := S128x128) hz2,
    View.ld_unit_zero (S := S3x128) hz2, View.ld_unit_zero (S := S128) hz1]
  funext y
  obtain ⟨p, q, rfl⟩ : ∃ (p : Fin 5000) (q : Fin 128), y = ix2 p q := ⟨y 0, y 1, eq_ix2 y⟩
  obtain ⟨-, -, -, -, -, -, e11_0, e11_1⟩ := idx_rows t
  have hE : ((cfg0.win 11).blk t).view.emb (ix2 p q) = (ix2 (row t p) q : S100000x128.Idx) := by
    funext a
    apply Fin.ext
    match a with
    | ⟨0, _⟩ => show win0_11.index t (0 : Fin 2) * 5000 + 1 * p.val = t.val * 5000 + p.val; omega
    | ⟨1, _⟩ => show win0_11.index t (1 : Fin 2) * 128 + 1 * q.val = q.val; omega
  show k0_pay1 (k0_pay2 (iblk m c 0 t) (iblk m c 1 t) (iblk m c 2 t) (iblk m c 3 t) (iblk m c 4 t) (iblk m c 5 t)
      (iblk m c 6 t) (iblk m c 7 t) (iblk m c 8 t)) (iblk m c 9 t) (iblk m c 10 t) (ix2 p q)
    = G m c (((cfg0.win 11).blk t).view.emb (ix2 p q))
  refine (Rows.body_apply (iblk m c 0 t) (iblk m c 1 t) (iblk m c 2 t) (iblk m c 3 t) (iblk m c 4 t) (iblk m c 5 t)
      (iblk m c 6 t) (iblk m c 7 t) (iblk m c 8 t) (iblk m c 9 t) (iblk m c 10 t) p q).trans ?_
  rw [hE, G_apply]
  simp only [blk0 m c t, blk1 m c t, blk2 m c t, blk3 m c t, blk4 m c t, blk5 m c t, blk6 m c t, blk7 m c t, blk8 m c t,
    blk9 m c t, blk10 m c t]

/-- An index of the result array is in point `t`'s block iff each coordinate is in the block's range on its axis. -/
theorem mem_blk (t : Fin cfg0.N) (i : S100000x128.Idx) :
    i ∈ ((cfg0.win 11).blk t).view.set ↔ ∀ a : Fin 2, win0_11.index t a * S5000x128.size a ≤ (i a).val
      ∧ (i a).val < win0_11.index t a * S5000x128.size a + S5000x128.size a := by
  show i ∈ ((View.whole main_v8).slice (win0_11.rect t)).set ↔ _
  rw [View.set_slice_whole, Rect.mem_set_unit]
  exact Iff.rfl

/-- Every row lies in some point's block: row `r` in block `r / 5000`. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  let t : Fin cfg0.N := ⟨(i 0).val / 5000, by have hN : cfg0.N = 20 := N_0; omega⟩
  obtain ⟨-, -, -, -, -, -, e11_0, e11_1⟩ := idx_rows t
  have ht : t.val = (i 0).val / 5000 := rfl
  refine ⟨t, flush0_11 t, ?_⟩
  rw [mem_blk]
  intro a
  match a with
  | ⟨0, _⟩ =>
    show win0_11.index t (0 : Fin 2) * 5000 ≤ (i 0).val ∧ (i 0).val < win0_11.index t (0 : Fin 2) * 5000 + 5000
    omega
  | ⟨1, _⟩ =>
    show win0_11.index t (1 : Fin 2) * 128 ≤ (i 1).val ∧ (i 1).val < win0_11.index t (1 : Fin 2) * 128 + 128
    omega

/-- The result array after the run is `G`. -/
theorem final (c : Dev nD) : (dats m 0 c).arrAt 11 cfg0.N = G m c :=
  (dats m 0 c).arrAt_eq_of_cover 11 (G m c) (fun t _ => flushed_eq m c t) cover

/-! ## The result in terms of @main's arguments -/

/-- The arrays the call finds are @main's arguments, the summed edge attributes, and the three row ranges of the first
    weight matrix: `G` is the network on every node's row of the arguments. -/
theorem G_eq (c : Dev nD) :
    G m c = mlpArray (m ((c : Thread nD τ).loc main_arg0)) (agg (m ((c : Thread nD τ).loc main_arg1)) (m ((c : Thread nD τ).loc main_arg2)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  funext i
  obtain ⟨r, q, rfl⟩ : ∃ (r : Fin 100000) (q : Fin 128), i = ix2 r q := ⟨i 0, i 1, eq_ix2 i⟩
  have s0 : ∀ (k j : Fin 128), extractStridedSlice S128x128 ![0, 0] (m ((c : Thread nD τ).loc main_arg4)) slices_S259x128_S128x128_0_0 (ix2 k j)
      = ((m ((c : Thread nD τ).loc main_arg4)) : S259x128.Idx → EReal) (ix2 (⟨k.val, by omega⟩ : Fin 259) j) := fun k j =>
    extractStridedSlice_apply _ _ _ _ _ fun a => by
      match a with
      | ⟨0, _⟩ => show k.val = 0 + k.val; omega
      | ⟨1, _⟩ => show j.val = 0 + j.val; omega
  have s1 : ∀ (k j : Fin 128), extractStridedSlice S128x128 ![128, 0] (m ((c : Thread nD τ).loc main_arg4)) slices_S259x128_S128x128_128_0 (ix2 k j)
      = ((m ((c : Thread nD τ).loc main_arg4)) : S259x128.Idx → EReal) (ix2 (⟨128 + k.val, by omega⟩ : Fin 259) j) := fun k j =>
    extractStridedSlice_apply _ _ _ _ _ fun a => by
      match a with
      | ⟨0, _⟩ => show 128 + k.val = 128 + k.val; rfl
      | ⟨1, _⟩ => show j.val = 0 + j.val; omega
  have s2 : ∀ (k : Fin 3) (j : Fin 128), extractStridedSlice S3x128 ![256, 0] (m ((c : Thread nD τ).loc main_arg4)) slices_S259x128_S3x128_256_0 (ix2 k j)
      = ((m ((c : Thread nD τ).loc main_arg4)) : S259x128.Idx → EReal) (ix2 (⟨256 + k.val, by omega⟩ : Fin 259) j) := fun k j =>
    extractStridedSlice_apply _ _ _ _ _ fun a => by
      match a with
      | ⟨0, _⟩ => show 256 + k.val = 256 + k.val; rfl
      | ⟨1, _⟩ => show j.val = 0 + j.val; omega
  rw [G_apply, mlpArray_apply, V_main_arg0 m c, V_agg m c, V_main_arg3 m c, V_w0_own m c, V_w0_sum m c, V_w0_extra m c,
    V_main_arg5 m c, V_main_arg6 m c, V_main_arg7 m c, V_main_arg8 m c, V_main_arg9 m c]
  simp only [s0, s1, s2]

/-- The run, read: the result array is the network on every node's row of the arguments, and the arguments are
    unchanged. -/
theorem run : θ_run defs (onTc (τ := τ) (main (F := Ideal))) ⟨m, fun _ => 0, ρ⟩ fun r => ∀ c : Dev nD,
      r.2.mem ((c : Thread nD τ).loc main_v8) = mlpArray (m ((c : Thread nD τ).loc main_arg0)) (agg (m ((c : Thread nD τ).loc main_arg1)) (m ((c : Thread nD τ).loc main_arg2)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (G_eq m c)), (h c).2⟩)
    (Cert.KernelIdeal.Value.run_blocks m ρ)

end Cert.KernelIdeal.Array
end
-- ==== Proof.ReferenceRows.lean ====
/-
  What the reference computes, entry by entry.

  The reference joins each node's own features, the summed edge attributes and the extra features into one row of
  259 entries and multiplies by the whole first weight matrix. Read at an index `i`, its result is the network
  `Cert.Mlp.mlpRow` on row `i 0` of those three arrays, with the first weight matrix cut into its rows 0–127,
  128–255 and 256–258: the sum over the 259 joined entries is regrouped into the three pieces' sums
  (`Cert.Mlp.sum_three_pieces`), and jax's expansion of SiLU, `t · (1 / (1 + e^(-t)))`, is `Cert.Mlp.silu`.
  The array of summed edge attributes is kept as the one term the reference computes it by; nothing here opens it.
-/
import proofs.«112431_j17910013624369_2_alg».proof.Proof.Gen.ReferenceIdeal.Read
import proofs.«112431_j17910013624369_2_alg».proof.Proof.Mlp
import Idealize.ShloMosaic.Lib.ValueIdx
import Idealize.ShloMosaic.Lib.Pipeline.Value
import Idealize.ShloMosaic.Lib.IdealHost

noncomputable section

namespace Cert.ReferenceIdeal.Rows

open Cert.ReferenceIdeal Cert.ReferenceIdeal.Read Idealize.ShloMosaic Idealize.ShloMosaic.ValueIdx Cert.Mlp

variable (x0 : (⟨S100000x128, .f32⟩ : BufTy).Contents (Elt Ideal)) (x1 : (⟨S2x1600000, .i32⟩ : BufTy).Contents (Elt Ideal))
  (x2 : (⟨S1600000x128, .f32⟩ : BufTy).Contents (Elt Ideal)) (x3 : (⟨S100000x3, .f32⟩ : BufTy).Contents (Elt Ideal))
  (x4 : (⟨S259x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## The joined row, piece by piece -/

/-- Columns 0–127 of the joined array are the node's own features. -/
theorem joined_own (r : Fin 100000) (k : Fin 128) :
    val_main_v5 (F := Ideal) x0 x1 x2 x3 (ix2 r (⟨k.val, by omega⟩ : Fin 259)) = x0 (ix2 r k) := by
  unfold val_main_v5
  refine concatenate_apply_piece (t := S100000x259) 1 [⟨S100000x128, x0⟩, ⟨S100000x128, val_main_v4 (F := Ideal) x1 x2⟩, ⟨S100000x3, x3⟩]
    _ (ix2 r (⟨k.val, by omega⟩ : Fin 259)) 0 (by show (0 : Nat) < 3; decide) S100000x128 x0 rfl rfl 0 rfl (ix2 r k) ?_ ?_
  · intro b hb
    match b with
    | ⟨0, _⟩ => rfl
    | ⟨1, _⟩ => exact absurd rfl hb
  · exact Nat.zero_add _

/-- Columns 128–255 are the summed edge attributes. -/
theorem joined_sum (r : Fin 100000) (k : Fin 128) :
    val_main_v5 (F := Ideal) x0 x1 x2 x3 (ix2 r (⟨128 + k.val, by omega⟩ : Fin 259)) = val_main_v4 (F := Ideal) x1 x2 (ix2 r k) := by
  unfold val_main_v5
  refine concatenate_apply_piece (t := S100000x259) 1 [⟨S100000x128, x0⟩, ⟨S100000x128, val_main_v4 (F := Ideal) x1 x2⟩, ⟨S100000x3, x3⟩]
    _ (ix2 r (⟨128 + k.val, by omega⟩ : Fin 259)) 1 (by show (1 : Nat) < 3; decide) S100000x128 (val_main_v4 (F := Ideal) x1 x2) rfl rfl 128 rfl (ix2 r k) ?_ ?_
  · intro b hb
    match b with
    | ⟨0, _⟩ => rfl
    | ⟨1, _⟩ => exact absurd rfl hb
  · rfl

/-- Columns 256–258 are the extra features. -/
theorem joined_extra (r : Fin 100000) (k : Fin 3) :
    val_main_v5 (F := Ideal) x0 x1 x2 x3 (ix2 r (⟨256 + k.val, by omega⟩ : Fin 259)) = x3 (ix2 r k) := by
  unfold val_main_v5
  refine concatenate_apply_piece (t := S100000x259) 1 [⟨S100000x128, x0⟩, ⟨S100000x128, val_main_v4 (F := Ideal) x1 x2⟩, ⟨S100000x3, x3⟩]
    _ (ix2 r (⟨256 + k.val, by omega⟩ : Fin 259)) 2 (by show (2 : Nat) < 3; decide) S100000x3 x3 rfl rfl 256 rfl (ix2 r k) ?_ ?_
  · intro b hb
    match b with
    | ⟨0, _⟩ => rfl
    | ⟨1, _⟩ => exact absurd rfl hb
  · rfl

/-! ## The three layers, at row `r` and column `q` -/

/-- The first layer before its SiLU: the product of the joined row with the first weight matrix, regrouped into the
    three pieces' products, plus the bias. -/
theorem first_layer (r : Fin 100000) (q : Fin 128) :
    val_main_v9 (F := Ideal) x0 x1 x2 x3 x4 x5 (ix2 r q)
      = dense3 (fun k => x0 (ix2 r k)) (fun k => val_main_v4 (F := Ideal) x1 x2 (ix2 r k)) (fun k => x3 (ix2 r k))
          (fun k j => x4 (ix2 (⟨k.val, by omega⟩ : Fin 259) j)) (fun k j => x4 (ix2 (⟨128 + k.val, by omega⟩ : Fin 259) j))
          (fun k j => x4 (ix2 (⟨256 + k.val, by omega⟩ : Fin 259) j)) (fun j => x5 (ix1 j)) q := by
  have hl : ∀ k : Fin 259, lidx_main_v6 (ix2 r q) k = ix2 r k := fun k => funext fun a => by
    match a with | ⟨0, _⟩ => rfl | ⟨1, _⟩ => rfl
  have hr : ∀ k : Fin 259, ridx_main_v6 (ix2 r q) k = ix2 k q := fun k => funext fun a => by
    match a with | ⟨0, _⟩ => rfl | ⟨1, _⟩ => rfl
  have hb : idx_main_v7 (idx_main_v8 (ix2 r q)) = ix1 q := funext fun a => by
    match a with | ⟨0, _⟩ => rfl
  rw [val_main_v9_apply, val_main_v6_apply, val_main_v8_apply, val_main_v7_apply, sum_three_pieces, hb]
  unfold dense3
  show (_ + _ + _) + _ = _
  refine congrArg₂ (· + ·) (congrArg₂ (· + ·) (congrArg₂ (· + ·) ?_ ?_) ?_) rfl
  · exact Finset.sum_congr rfl fun k _ => by rw [hl, hr, joined_own]
  · exact Finset.sum_congr rfl fun k _ => by rw [hl, hr, joined_sum]
  · exact Finset.sum_congr rfl fun k _ => by rw [hl, hr, joined_extra]

/-- jax's SiLU after the first layer, `t · (1 / (1 + e^(-t)))` entry by entry, is `silu`. -/
theorem first_silu (i : S100000x128.Idx) :
    val_main_v10 (F := Ideal) x0 x1 x2 x3 x4 x5 i = silu (val_main_v9 (F := Ideal) x0 x1 x2 x3 x4 x5 i) := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply]
  show _ * Ideal.div (Ideal.ofBits .f32 0x3F800000#32) (Ideal.ofBits .f32 0x3F800000#32 + Ideal.exp (-_)) = _
  rw [Ideal.ofBits_one_f32]
  rfl

/-- The second layer before its SiLU. -/
theorem second_layer (r : Fin 100000) (q : Fin 128) :
    val_main_v14 (F := Ideal) x0 x1 x2 x3 x4 x5 x6 x7 (ix2 r q)
      = dense (fun k => val_main_v10 (F := Ideal) x0 x1 x2 x3 x4 x5 (ix2 r k)) (fun k j => x6 (ix2 k j)) (fun j => x7 (ix1 j)) q := by
  have hl : ∀ k : Fin 128, lidx_main_v11 (ix2 r q) k = ix2 r k := fun k => funext fun a => by
    match a with | ⟨0, _⟩ => rfl | ⟨1, _⟩ => rfl
  have hr : ∀ k : Fin 128, ridx_main_v11 (ix2 r q) k = ix2 k q := fun k => funext fun a => by
    match a with | ⟨0, _⟩ => rfl | ⟨1, _⟩ => rfl
  have hb : idx_main_v12 (idx_main_v13 (ix2 r q)) = ix1 q := funext fun a => by
    match a with | ⟨0, _⟩ => rfl
  rw [val_main_v14_apply, val_main_v11_apply, val_main_v13_apply, val_main_v12_apply, hb]
  unfold dense
  show _ + _ = _
  refine congrArg₂ (· + ·) (Finset.sum_congr rfl fun k _ => ?_) rfl
  rw [hl, hr]

/-- jax's SiLU after the second layer. -/
theorem second_silu (i : S100000x128.Idx) :
    val_main_v15 (F := Ideal) x0 x1 x2 x3 x4 x5 x6 x7 i = silu (val_main_v14 (F := Ideal) x0 x1 x2 x3 x4 x5 x6 x7 i) := by
  rw [val_main_v15_apply, val_main_call1_v5_apply, val_main_call1_v4_apply, val_main_call1_cst_0_apply,
    val_main_call1_v3_apply, val_main_call1_v2_apply, val_main_call1_cst_apply, val_main_call1_v1_apply,
    val_main_call1_v0_apply]
  show _ * Ideal.div (Ideal.ofBits .f32 0x3F800000#32) (Ideal.ofBits .f32 0x3F800000#32 + Ideal.exp (-_)) = _
  rw [Ideal.ofBits_one_f32]
  rfl

/-- The third layer: the result. -/
theorem third_layer (r : Fin 100000) (q : Fin 128) :
    val_main_v19 (F := Ideal) x0 x1 x2 x3 x4 x5 x6 x7 x8 x9 (ix2 r q)
      = dense (fun k => val_main_v15 (F := Ideal) x0 x1 x2 x3 x4 x5 x6 x7 (ix2 r k)) (fun k j => x8 (ix2 k j)) (fun j => x9 (ix1 j)) q := by
  have hl : ∀ k : Fin 128, lidx_main_v16 (ix2 r q) k = ix2 r k := fun k => funext fun a => by
    match a with | ⟨0, _⟩ => rfl | ⟨1, _⟩ => rfl
  have hr : ∀ k : Fin 128, ridx_main_v16 (ix2 r q) k = ix2 k q := fun k => funext fun a => by
    match a with | ⟨0, _⟩ => rfl | ⟨1, _⟩ => rfl
  have hb : idx_main_v17 (idx_main_v18 (ix2 r q)) = ix1 q := funext fun a => by
    match a with | ⟨0, _⟩ => rfl
  rw [val_main_v19_apply, val_main_v16_apply, val_main_v18_apply, val_main_v17_apply, hb]
  unfold dense
  show _ + _ = _
  refine congrArg₂ (· + ·) (Finset.sum_congr rfl fun k _ => ?_) rfl
  rw [hl, hr]

/-! ## The result at an index -/

/-- The reference's result at row `r`, column `q` is the network on row `r` of the inputs, read at `q`. -/
theorem result_apply (r : Fin 100000) (q : Fin 128) :
    val_main_v19 (F := Ideal) x0 x1 x2 x3 x4 x5 x6 x7 x8 x9 (ix2 r q)
      = mlpRow (fun k => x0 (ix2 r k)) (fun k => val_main_v4 (F := Ideal) x1 x2 (ix2 r k)) (fun k => x3 (ix2 r k))
          (fun k j => x4 (ix2 (⟨k.val, by omega⟩ : Fin 259) j)) (fun k j => x4 (ix2 (⟨128 + k.val, by omega⟩ : Fin 259) j))
          (fun k j => x4 (ix2 (⟨256 + k.val, by omega⟩ : Fin 259) j)) (fun j => x5 (ix1 j))
          (fun k j => x6 (ix2 k j)) (fun j => x7 (ix1 j)) (fun k j => x8 (ix2 k j)) (fun j => x9 (ix1 j)) q := by
  rw [third_layer]
  unfold mlpRow
  simp only [second_silu, second_layer, first_silu, first_layer]

/-- The reference's result array is the network on every node's row. -/
theorem result_eq :
    val_main_v19 (F := Ideal) x0 x1 x2 x3 x4 x5 x6 x7 x8 x9 = mlpArray x0 (val_main_v4 (F := Ideal) x1 x2) x3 x4 x5 x6 x7 x8 x9 := by
  funext i
  obtain ⟨r, q, rfl⟩ : ∃ (r : Fin 100000) (q : Fin 128), i = ix2 r q := ⟨i 0, i 1, eq_ix2 i⟩
  rw [result_apply, mlpArray_apply]

end Cert.ReferenceIdeal.Rows

end
-- ==== Proof.lean ====
/-
  The kernel and its reference compute one function.

  Both programs first add up, for every node, the attributes of the edges that arrive at it (a scatter-add by
  destination node, the same host operation with the same operands in both). The reference then joins each node's
  own features, that sum and the extra features into one row of 259 entries and applies a three-layer network with
  SiLU after the first two layers. The kernel applies the same network to blocks of 5000 nodes at a time, taking the
  first layer's product piece by piece against the matching rows of the first weight matrix.

  On the extended reals the two agree entry by entry (`Cert.Mlp.mlpArray`): a sum over the 259 joined entries is the
  sum of the three pieces' sums (addition is commutative and associative there, so no finiteness is used), the
  kernel's logistic function is the quotient `1 / (1 + e^(-t))` the reference spells out, every change of float format
  is the identity, and the 20 blocks of rows tile the array. The kernel's side is `Cert.KernelIdeal.Array.run`, the
  reference's `Cert.ReferenceIdeal.Rows.result_eq` over its run.

  The idealization rewrote nothing, so there is nothing to preserve; the three programs' runs end with the arguments
  unchanged.
-/
import proofs.«112431_j17910013624369_2_alg».proof.Defs
import proofs.«112431_j17910013624369_2_alg».proof.Proof.Gen.Kernel
import proofs.«112431_j17910013624369_2_alg».proof.Proof.Gen.Kernel.Skeleton
import proofs.«112431_j17910013624369_2_alg».proof.Proof.Gen.Kernel.Launch
import proofs.«112431_j17910013624369_2_alg».proof.Proof.Gen.Kernel.Points
import proofs.«112431_j17910013624369_2_alg».proof.Proof.Gen.Kernel.Frame
import proofs.«112431_j17910013624369_2_alg».proof.Proof.Gen.KernelIdeal
import proofs.«112431_j17910013624369_2_alg».proof.Proof.Gen.KernelIdeal.Skeleton
import proofs.«112431_j17910013624369_2_alg».proof.Proof.Gen.KernelIdeal.Launch
import proofs.«112431_j17910013624369_2_alg».proof.Proof.Gen.KernelIdeal.Points
import proofs.«112431_j17910013624369_2_alg».proof.Proof.Gen.KernelIdeal.Frame
import proofs.«112431_j17910013624369_2_alg».proof.Proof.Gen.ReferenceIdeal
import proofs.«112431_j17910013624369_2_alg».proof.Proof.Gen.Pre_finite_inputs
import proofs.«112431_j17910013624369_2_alg».proof.Proof.Gen.KernelIdeal.Value
import proofs.«112431_j17910013624369_2_alg».proof.Proof.Gen.ReferenceIdeal.Run
import proofs.«112431_j17910013624369_2_alg».proof.Proof.Gen.ReferenceIdeal.Read
import proofs.«112431_j17910013624369_2_alg».proof.Proof.KernelArray
import proofs.«112431_j17910013624369_2_alg».proof.Proof.ReferenceRows
import Idealize.ShloMosaic.Adequacy
import Idealize.ShloMosaic.Init

noncomputable section

namespace Cert.Proof

open Idealize.ShloMosaic Idealize.SL.Sem

/-- The two programs compute the summed edge attributes by the same operation of the same operands. -/
theorem summed_edges_eq (x1 : (⟨Cert.ReferenceIdeal.S2x1600000, .i32⟩ : BufTy).Contents (Elt Ideal))
    (x2 : (⟨Cert.ReferenceIdeal.S1600000x128, .f32⟩ : BufTy).Contents (Elt Ideal)) :
    Cert.ReferenceIdeal.Read.val_main_v4 (F := Ideal) x1 x2 = Cert.KernelIdeal.Array.agg x1 x2 := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run, with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on the arguments both runs end with the result array at the network on every node's
    row of the arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v19_eq, Cert.ReferenceIdeal.Rows.result_eq, summed_edges_eq,
    h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
